-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S2048x128 : Shape := ⟨2, ![2048, 128]⟩
abbrev S1024x1 : Shape := ⟨2, ![1024, 1]⟩
abbrev S1x2048 : Shape := ⟨2, ![1, 2048]⟩
abbrev S128x2048 : Shape := ⟨2, ![128, 2048]⟩
abbrev S1024x2048 : Shape := ⟨2, ![1024, 2048]⟩
abbrev S1024 : Shape := ⟨1, ![1024]⟩
abbrev S_ : Shape := ⟨0, ![]⟩

abbrev nBuf : Space → Nat
  | .hbm => 10
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S2048x128, .bf16⟩
  | .local _ .vmem, ⟨3, _⟩ => ⟨S2048x128, .bf16⟩
  | .local _ .vmem, ⟨4, _⟩ => ⟨S1024x1, .i32⟩
  | .local _ .vmem, ⟨5, _⟩ => ⟨S1024x1, .i32⟩
  | .local _ .vmem, ⟨6, _⟩ => ⟨S1x2048, .i32⟩
  | .local _ .vmem, ⟨7, _⟩ => ⟨S1x2048, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  transposes_S2048x128_p1_0_S128x2048 : S2048x128.Transposes [1, 0] S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  reducesTo_S8192x1_S_d0_1 : S8192x1.ReducesTo [0, 1] S_
  h_S_ : 0 < S_.numel
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .bf16 = 32 ∨ (Rect.block (s := S8192x128) S2048x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x8192.size a
  hwx0_3 : ∀ i : grid0.Coords, EltTy.bits .i32 = 32 ∨ (Rect.block (s := S1x8192) S1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128x8192, .f32⟩
  | .hbm, ⟨3, _⟩ => ⟨S8192x8192, .f32⟩
  | .hbm, ⟨4, _⟩ => ⟨S8192x1, .i32⟩
  | .hbm, ⟨5, _⟩ => ⟨S1x8192, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.RunsKernel.lean ====
/-
  What the three control cases of the kernel body share.

  The grid is 8 row tiles by 4 column tiles, visited row tile by row tile; point `t` is row tile `t / 4`,
  column tile `t % 4`. The body zeroes its row accumulator (a scratch of 1024 rows) when the column tile is 0, adds
  the tile's row sums to it at every point, and stores the logarithm of the accumulator into the output block when
  the column tile is 3. So there are three cases: first column tile (A), a middle one (B), the last one (C).
  Here: the buffers' contents when the region is entered, each window's block at a point, the two branch
  conditions in closed form over the grid, where the output window is idle, and the names of the staging memrefs
  and of the scratch.
-/
import proofs.«175180_j59605556134109_2_alg».proof.Proof.Gen.Kernel.Launch
import proofs.«175180_j59605556134109_2_alg».proof.Proof.Gen.Kernel.Skeleton
import proofs.«175180_j59605556134109_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers around the region -/

/-- Core `c`'s buffers at launch, as a valuation; -/
abbrev V0 (c : Dev nD) : Valuation τ sig (Elt F) := fun b => m (c, b)
/-- and when the region is entered: the cast of the embeddings and the two reshapes of the labels have run. -/
abbrev V1 (c : Dev nD) : Valuation τ sig (Elt F) := StableHlo.after hostOps0 (V0 m c)
/-- The same read at a TensorCore reference. -/
abbrev V (c : Dev nD) (b : Ref sig .tc) : Buf (Elt F) ((c : Thread nD τ).loc b) := V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a point that
    does not fetch it has the same block index as the one before), for any proof data whose array is the region's
    and whose body leaves the block in place. One statement per input window: the embeddings' row tile, their
    column tile, the labels' column of the row tile, the labels' row of the column tile. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch is taken when the column tile is 0: the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch is taken when the column tile is 3: the logarithm of the accumulator is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ i : grid0.Coords, cfg0.idle 0 i = false := fun _ => rfl
theorem liveAt0_1 : ∀ i : grid0.Coords, cfg0.idle 1 i = false := fun _ => rfl
theorem liveAt0_2 : ∀ i : grid0.Coords, cfg0.idle 2 i = false := fun _ => rfl
theorem liveAt0_3 : ∀ i : grid0.Coords, cfg0.idle 3 i = false := fun _ => rfl
/-- Where the second branch is not taken the output window is idle, and it is not written back there. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1024x1 .f32 := (Memref.whole cc0_stg4_0 : Memref sig .tc .vmem S1024x1 .f32).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The row accumulator: a whole scoped buffer of the kernel's own. -/
abbrev scM0_0 : Memref sig .tc .vmem S1024x1 .f32 := Memref.whole cc0_scratch0
abbrev VS0_0 : View sig .tc .vmem S1024x1 .f32 := scM0_0.view

/-- The core's scoped buffers that are no staging buffer: the accumulator, at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Hand

end
-- ==== Proof.RunAKernel.lean ====
/-
  The kernel body run whole in case A: the column tile is 0 (points 0, 4, 8, …): the accumulator is zeroed, then the tile's row sums are added; the output block is not touched.
  The statement: on whole memrefs holding the four input blocks, the body runs to a continuation that holds the
  inputs as they were, the accumulator with the body's stores written, and the output block as it was handed;
  the lists of stores are found by running the body.
-/
import proofs.«175180_j59605556134109_2_alg».proof.Proof.RunsKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S1024x1 .i32) (x3 : Vec F S1x2048 .i32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨[], ?_, fun xi4 E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.RunBKernel.lean ====
/-
  The kernel body run whole in case B: the column tile is 1 or 2: the tile's row sums are added to what the point before left in the accumulator; the output block is not touched.
  The statement: on whole memrefs holding the four input blocks, the body runs to a continuation that holds the
  inputs as they were, the accumulator with the body's stores written, and the output block as it was handed;
  the lists of stores are found by running the body.
-/
import proofs.«175180_j59605556134109_2_alg».proof.Proof.RunAKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S1024x1 .i32) (x3 : Vec F S1x2048 .i32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨[], ?_, fun xi4 E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.RunCKernel.lean ====
/-
  The kernel body run whole in case C: the column tile is 3: the tile's row sums are added to what the point before left in the accumulator, and the logarithm of the result is stored into the output block.
  The statement: on whole memrefs holding the four input blocks, the body runs to a continuation that holds the
  inputs as they were, the accumulator with the body's stores written, and the output block with its store written;
  the lists of stores are found by running the body.
-/
import proofs.«175180_j59605556134109_2_alg».proof.Proof.RunBKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S1024x1 .i32) (x3 : Vec F S1x2048 .i32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨?_, ?_, fun E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.FrameKernel.lean ====
/-
  The body obligation of the one pallas_call, and what its output and its accumulator hold after each grid point.

  After point `t` (row tile `t / 4`, column tile `t % 4`) the accumulator holds the sum of the row sums of the
  column tiles `0 … t % 4` of that row tile: it is zeroed when the column tile is 0 and added to at every point;
  when the column tile is 3 the output block holds the logarithm of the accumulator. `outsAt0` states this by
  recursion on the point through the three cases' runs; the region's invariant before a point is the accumulator at
  what the point before left (anything before the first point); the proof data name each input's staging buffer
  at its block and the output's at `outsAt0`; `sound_body` is the body's triple at a point, by cases on the
  column tile.
-/
import proofs.«175180_j59605556134109_2_alg».proof.Proof.RunCKernel

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output block's staging buffer (nothing is stored: a placeholder nothing consults, the window being idle there). -/
def out0_A_4 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S1024x1 .i32) (x3 : Vec F S1x2048 .i32) : Vec F S1024x1 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores into the accumulator cover it. -/
theorem scover0_A_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S1024x1 .i32) (x3 : Vec F S1x2048 .i32) (y : S1024x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x1.size (by sl_kernel_rfl) y

/-- What case A leaves in the accumulator: its stores read back. -/
def sout0_A_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S1024x1 .i32) (x3 : Vec F S1x2048 .i32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case B leaves in the output block's staging buffer (nothing is stored: a placeholder nothing consults, the window being idle there). -/
def out0_B_4 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S1024x1 .i32) (x3 : Vec F S1x2048 .i32) (xs0 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's stores into the accumulator cover it. -/
theorem scover0_B_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S1024x1 .i32) (x3 : Vec F S1x2048 .i32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x1.size (by sl_kernel_rfl) y

/-- What case B leaves in the accumulator: its stores read back. -/
def sout0_B_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S1024x1 .i32) (x3 : Vec F S1x2048 .i32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- In case C the one store into the output block covers it. -/
theorem cover0_C_4 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S1024x1 .i32) (x3 : Vec F S1x2048 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y

/-- What case C leaves in the output block's staging buffer: its store read back. -/
def out0_C_4 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S1024x1 .i32) (x3 : Vec F S1x2048 .i32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's stores into the accumulator cover it. -/
theorem scover0_C_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S1024x1 .i32) (x3 : Vec F S1x2048 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y

/-- What case C leaves in the accumulator: its stores read back. -/
def sout0_C_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S1024x1 .i32) (x3 : Vec F S1x2048 .i32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output block and the accumulator hold after each point -/

def outsAt0 (c : Dev nD) : (n : ℕ) → n < cfg0.N → Vec F S1024x1 .f32 × Vec F S1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at
    what the point before left in it. -/
def PhiS (c : Dev nD) : (n : ℕ) → n ≤ cfg0.N → sProp 𝕄
  | 0, _ => iprop(∃ d, owns (c : Thread nD τ) scM0_0 fullShare d)
  | n + 1, hn => owns (c : Thread nD τ) scM0_0 fullShare ((outsAt0 m c n hn).2)

theorem PhiS_zero (c : Dev nD) (n : ℕ) (h : n ≤ cfg0.N) (hz : n = 0) : PhiS m c n h = iprop(∃ d, owns (c : Thread nD τ) scM0_0 fullShare d) := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The arrays as the region finds them; after the body at point `t` each input's buffer at its block and the
    output's at `outsAt0`; the invariant on the accumulator; nothing owed. The embeddings' array is read by two
    windows, the row tile's and the column tile's: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  unfold Dat.leavesExact; rw [liveAt0_0 _, after0_0]
theorem leaves_in1 (c : Dev nD) (t : Fin cfg0.N) : (dats m 0 c).leavesExact 1 t = owns (c : Thread nD τ) (ms0_1 t) fullShare (iblk m c 1 t) := by
  unfold Dat.leavesExact; rw [liveAt0_1 _, after0_1]
theorem leaves_in2 (c : Dev nD) (t : Fin cfg0.N) : (dats m 0 c).leavesExact 2 t = owns (c : Thread nD τ) (ms0_2 t) fullShare (iblk m c 2 t) := by
  unfold Dat.leavesExact; rw [liveAt0_2 _, after0_2]
theorem leaves_in3 (c : Dev nD) (t : Fin cfg0.N) : (dats m 0 c).leavesExact 3 t = owns (c : Thread nD τ) (ms0_3 t) fullShare (iblk m c 3 t) := by
  unfold Dat.leavesExact; rw [liveAt0_3 _, after0_3]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 32 := lt_of_lt_of_eq t.isLt (show cfg0.N = 32 from N_0)
  by_cases h0 : t.val % 4 = 0
  · by_cases h1 : t.val % 4 = 3
    · exfalso; omega
    · rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz]
        iintro ⟨HS0, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨HS0, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      have hz : t.val ≠ 0 := by omega
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RegionKernel.lean ====
/-
  The run of @main: the cast and the two reshapes, the pallas_call, then the mean of its result.

  @main is three host operations (the embeddings cast to the kernel's operand format, the labels reshaped to a
  column and to a row), the kernel region, and four host operations (the sum of the 8192 row values and its division
  by 8192). Between two of these items core `c` holds every unscoped buffer whole at a valuation: the launch contents,
  then the first stretch applied, then the region's result buffer replaced by what the pipeline wrote back, then
  the second stretch applied. The region is entered by splitting the cast embeddings' buffer in two halves — one
  for the window that reads a row tile of it, one for the window that reads a column tile — and left by joining
  them again. The run concludes: every execution terminates, the two argument arrays end as launched, and the
  result buffer ends at the second stretch's value.
-/
import proofs.«175180_j59605556134109_2_alg».proof.Proof.FrameKernel
import Idealize.ShloMosaic.Lib.Pipeline.Frame
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- What the region leaves in its result buffer: every row tile's block written back at its last column tile. -/
abbrev outArr (c : Dev nD) : Buf (Elt F) ((c : Thread nD τ).loc main_v3) := (dats m 0 c).arrAt 4 cfg0.N
/-- Core `c`'s unscoped buffers after the region: the result buffer replaced, -/
abbrev V2 (c : Dev nD) : Valuation τ sig (Elt F) := Function.update (V1 m c) main_v3 (outArr m c)
/-- and after the four operations that take the mean. -/
abbrev V3 (c : Dev nD) : Valuation τ sig (Elt F) := StableHlo.after hostOps1 (V2 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
abbrev hostOps0_W : List (Ref sig .tc) := [main_v0, main_v1, main_v2]
abbrev hostOps1_W : List (Ref sig .tc) := [main_cst, main_v4, main_cst_0, main_v5]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide)⟩)
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide)⟩)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v3] : List (Ref sig .tc))) : V2 m c r = V1 m c r := by
  simp only [V2, Function.update_of_ne (StableHlo.devRef_ne_of_ne (List.ne_of_not_mem_cons h) : (Proc.devRef .tc r : DevRef τ sig) ≠ Proc.devRef .tc main_v3)]
theorem V2_out (c : Dev nD) : V2 m c main_v3 = outArr m c := by
  simp only [V2, Function.update_self]
theorem V3_of (c : Dev nD) (r : Ref sig .tc) (h : r ∉ hostOps1_W) : V3 m c r = V2 m c r :=
  StableHlo.after_of_writes_sub hostOps1 _ hostOps1_writes h

/-- No item writes an argument: each reaches the end as launched. -/
theorem V3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_main_arg1 (c : Dev nD) : V3 m c main_arg1 = m ((c : Thread nD τ).loc main_arg1) :=
  (V3_of m c main_arg1 (by decide)).trans <| (V2_of m c main_arg1 (by decide)).trans <| (V1_of m c main_arg1 (by decide)).trans rfl

/-! ## The arrays at the region's two ends -/

/-- The distinct buffers behind the five windows, listed: the cast embeddings (two windows), the labels' column,
    the labels' row, the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)) := by
  unfold Pipeline.arrBufs; exact bigSep_eq_bigSepL_of_eq [main_v0, main_v1, main_v2, main_v3] (by decide) (by decide) _

/-- The pipeline's arrays, window by window at its share: the cast embeddings' two halves, the rest whole. -/
theorem arrays_eq (c : Dev nD) (Fn : (w : Fin cfg0.W) → Buf (Elt F) ((cfg0.win w).arr.view.loc (c : Thread nD τ))) :
    ((dats m 0 c).arrays Fn : sProp 𝕄)
      = iprop((((c : Thread nD τ).loc main_v0) ↦{fullShare.left} Fn 0) ∗ (((c : Thread nD τ).loc main_v0) ↦{fullShare.right} Fn 1)
          ∗ (((c : Thread nD τ).loc main_v1) ↦{fullShare} Fn 2) ∗ (((c : Thread nD τ).loc main_v2) ↦{fullShare} Fn 3)
          ∗ (((c : Thread nD τ).loc main_v3) ↦{fullShare} Fn 4)) := by
  unfold Dat.arrays
  rw [bigSep_W0, (arr_whole0 0).set_eq_univ, (arr_whole0 2).set_eq_univ, (arr_whole0 3).set_eq_univ, (arr_whole0 4).set_eq_univ]
  rfl

theorem arrAt_in0 (c : Dev nD) (n : ℕ) : (dats m 0 c).arrAt 0 n = V m c main_v0 := ((dats m 0 c).arrAt_in 0 rfl n).trans (A_eq m c 0)
theorem arrAt_in1 (c : Dev nD) (n : ℕ) : (dats m 0 c).arrAt 1 n = V m c main_v0 := ((dats m 0 c).arrAt_in 1 rfl n).trans (A_eq m c 1)
theorem arrAt_in2 (c : Dev nD) (n : ℕ) : (dats m 0 c).arrAt 2 n = V m c main_v1 := ((dats m 0 c).arrAt_in 2 rfl n).trans (A_eq m c 2)
theorem arrAt_in3 (c : Dev nD) (n : ℕ) : (dats m 0 c).arrAt 3 n = V m c main_v2 := ((dats m 0 c).arrAt_in 3 rfl n).trans (A_eq m c 3)

/-! ## The items as segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers: the core owes nothing. -/
abbrev R (c : Dev nD) : sProp 𝕄 := iprop(∃ W, owes (c : Thread nD τ) (0 : CellTallies nD τ sig Unit) W)

def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
def seg2 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

set_option backward.isDefEq.respectTransparency.types false in
/-- THE REGION: entered from what the first stretch left, the five windows' arrays into the pipeline (the cast
    embeddings split between its two windows), every other unscoped buffer bypassing; left with the result buffer
    at what the pipeline wrote back and everything else as it was. -/
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (V1 m c) = unscopedBufs c (V m c) from (Pipeline.unscopedBufs_held c _).symm,
      Pipeline.unscopedBufs_split₀ cfgs 0 winFacts₀0.arr_unscoped c (V m c), arrBufs_eq, arrays_eq]
    iintro ⟨⟨⟨⟨H0, H1, H2, H3⟩, HZ⟩, HO⟩, -, -⟩
    ihave H0' := (pointsTo_share (PosShare.mem_left_op_right fullShare)).1 $$ H0
    icases H0' with ⟨H0a, H0b⟩
    imodintro
    isplitl [H0a H0b H1 H2 H3]
    · isplitl [H0a]; · iexact H0a
      isplitl [H0b]; · iexact H0b
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m 0 c).Φ 0 = PhiS m c 0 (Nat.zero_le _) from rfl, PhiS_zero m c 0 _ rfl, scopedRest_acc]
    iintro ⟨-, -, Hr⟩
    iexact Hr
  hout c := by
    rw [Pipeline.ownSems0_none, scopedRest_acc, show (dats m 0 c).Φ (Fin.last cfg0.N) = PhiS m c cfg0.N (Nat.le_refl _) from rfl,
      PhiS_pos m c _ _ (by rw [show cfg0.N = 32 from N_0]; decide)]
    iintro HS
    isplitr; · iempintro
    isplitr; · iempintro
    iexists _; iexact HS
  hexit c := by
    rw [show StableHlo.held (c : Thread nD τ) (Pipeline.ucRefs τ sig) (V2 m c) = unscopedBufs c (fun b => V2 m c b) from (Pipeline.unscopedBufs_held c _).symm,
      Pipeline.unscopedBufs_split₀ cfgs 0 winFacts₀0.arr_unscoped c (fun b => V2 m c b), arrBufs_eq, arrays_eq,
      arrAt_in0, arrAt_in1, arrAt_in2, arrAt_in3, unscopedRest0_eq, unscopedRest0_eq,
      V2_of m c main_v0 (by decide), V2_of m c main_v1 (by decide), V2_of m c main_v2 (by decide), V2_out,
      V2_of m c main_arg0 (by decide), V2_of m c main_arg1 (by decide), V2_of m c main_cst (by decide), V2_of m c main_v4 (by decide),
      V2_of m c main_cst_0 (by decide), V2_of m c main_v5 (by decide)]
    iintro ⟨⟨H0a, H0b, H1, H2, H3⟩, HO, -, HZ⟩
    ihave H0 := (pointsTo_share (PosShare.mem_left_op_right fullShare)).2 $$ [H0a H0b]
    · isplitl [H0a] <;> iassumption
    imodintro
    isplitr [HO]
    · isplitl [H0 H1 H2 H3]
      · isplitl [H0]; · iexact H0
        isplitl [H1]; · iexact H1
        isplitl [H2]; · iexact H2
        iexact H3
      iexact HZ
    · unfold Pipeline.Dat.owesAt Pipeline.owesWithin
      icases HO with ⟨%W, -, HO⟩; iexists W; iexact HO

/-- @main as the list of the three. -/
abbrev segs : List (Seg (pcfgs (F := F)) adm (dats m) () defs₀ Variants.none L lv) := [.host (seg0 m), .region (reg0 m), .host (seg2 m)]

/-- What the run ends with, on every core: the arguments as launched, the result at the mean's value. -/
def QC : PUnit × MemSt nD τ sig (Elt F) → Prop := fun r =>
  ∀ c : Dev nD, r.2.mem ((c : Thread nD τ).loc main_v5) = V3 m c main_v5
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- At the compiled mesh, at any float instance, from any memory with zero counters: every weakly fair execution
    of @main terminates, nothing faulting, and every final state has the result buffer at the second stretch's
    value and both argument arrays unchanged. -/
theorem run_main : θ_run defs (onTc (τ := τ) (main (F := F))) ⟨m, fun _ => 0, ρ⟩ (QC m) :=
  Pipeline.θ_run_regions_kit (pcfgs (F := F)) adm (dats m) () cellOf_inj EP defs₀ Variants.none L lv m ρ main (segs m)
    (fun c Q => by rw [main_segs adm (dats m) () Variants.none L lv (seg0 m) (seg2 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c : Thread nD τ).loc main_v5) = V3 m c main_v5
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        exact ⟨h (Proc.devRef .tc main_v5) (Finset.mem_filter.mpr ⟨StableHlo.devRef_mem_tcRefs main_v5, by decide⟩),
          (h (Proc.devRef .tc main_arg0) (Finset.mem_filter.mpr ⟨StableHlo.devRef_mem_tcRefs main_arg0, by decide⟩)).trans (V3_main_arg0 m c),
          (h (Proc.devRef .tc main_arg1) (Finset.mem_filter.mpr ⟨StableHlo.devRef_mem_tcRefs main_arg1, by decide⟩)).trans (V3_main_arg1 m c)⟩
      · iexact HSI)
    (hQ := fun _ h => h)

end Cert.Kernel.Hand

end
-- ==== Proof.RunsKernelIdeal.lean ====
/-
  What the three control cases of the kernel body share.

  The grid is 8 row tiles by 4 column tiles, visited row tile by row tile; point `t` is row tile `t / 4`,
  column tile `t % 4`. The body zeroes its row accumulator (a scratch of 1024 rows) when the column tile is 0, adds
  the tile's row sums to it at every point, and stores the logarithm of the accumulator into the output block when
  the column tile is 3. So there are three cases: first column tile (A), a middle one (B), the last one (C).
  Here: the buffers' contents when the region is entered, each window's block at a point, the two branch
  conditions in closed form over the grid, where the output window is idle, and the names of the staging memrefs
  and of the scratch.
-/
import proofs.«175180_j59605556134109_2_alg».proof.Proof.Gen.KernelIdeal.Launch
import proofs.«175180_j59605556134109_2_alg».proof.Proof.Gen.KernelIdeal.Skeleton
import proofs.«175180_j59605556134109_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers around the region -/

/-- Core `c`'s buffers at launch, as a valuation; -/
abbrev V0 (c : Dev nD) : Valuation τ sig (Elt F) := fun b => m (c, b)
/-- and when the region is entered: the cast of the embeddings and the two reshapes of the labels have run. -/
abbrev V1 (c : Dev nD) : Valuation τ sig (Elt F) := StableHlo.after hostOps0 (V0 m c)
/-- The same read at a TensorCore reference. -/
abbrev V (c : Dev nD) (b : Ref sig .tc) : Buf (Elt F) ((c : Thread nD τ).loc b) := V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (a point that
    does not fetch it has the same block index as the one before), for any proof data whose array is the region's
    and whose body leaves the block in place. One statement per input window: the embeddings' row tile, their
    column tile, the labels' column of the row tile, the labels' row of the column tile. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch is taken when the column tile is 0: the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch is taken when the column tile is 3: the logarithm of the accumulator is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ i : grid0.Coords, cfg0.idle 0 i = false := fun _ => rfl
theorem liveAt0_1 : ∀ i : grid0.Coords, cfg0.idle 1 i = false := fun _ => rfl
theorem liveAt0_2 : ∀ i : grid0.Coords, cfg0.idle 2 i = false := fun _ => rfl
theorem liveAt0_3 : ∀ i : grid0.Coords, cfg0.idle 3 i = false := fun _ => rfl
/-- Where the second branch is not taken the output window is idle, and it is not written back there. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

/-- One staging buffer of the output window, through which its contents are stated. -/
abbrev VO0_4 : View sig .tc .vmem S1024x1 .f32 := (Memref.whole cc0_stg4_0 : Memref sig .tc .vmem S1024x1 .f32).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2048 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The row accumulator: a whole scoped buffer of the kernel's own. -/
abbrev scM0_0 : Memref sig .tc .vmem S1024x1 .f32 := Memref.whole cc0_scratch0
abbrev VS0_0 : View sig .tc .vmem S1024x1 .f32 := scM0_0.view

/-- The core's scoped buffers that are no staging buffer: the accumulator, at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Hand

end
-- ==== Proof.RunAKernelIdeal.lean ====
/-
  The kernel body run whole in case A: the column tile is 0 (points 0, 4, 8, …): the accumulator is zeroed, then the tile's row sums are added; the output block is not touched.
  The statement: on whole memrefs holding the four input blocks, the body runs to a continuation that holds the
  inputs as they were, the accumulator with the body's stores written, and the output block as it was handed;
  the lists of stores are found by running the body.
-/
import proofs.«175180_j59605556134109_2_alg».proof.Proof.RunsKernelIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S1024x1 .i32) (x3 : Vec F S1x2048 .i32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨[], ?_, fun xi4 E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.RunBKernelIdeal.lean ====
/-
  The kernel body run whole in case B: the column tile is 1 or 2: the tile's row sums are added to what the point before left in the accumulator; the output block is not touched.
  The statement: on whole memrefs holding the four input blocks, the body runs to a continuation that holds the
  inputs as they were, the accumulator with the body's stores written, and the output block as it was handed;
  the lists of stores are found by running the body.
-/
import proofs.«175180_j59605556134109_2_alg».proof.Proof.RunAKernelIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S1024x1 .i32) (x3 : Vec F S1x2048 .i32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨[], ?_, fun xi4 E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.RunCKernelIdeal.lean ====
/-
  The kernel body run whole in case C: the column tile is 3: the tile's row sums are added to what the point before left in the accumulator, and the logarithm of the result is stored into the output block.
  The statement: on whole memrefs holding the four input blocks, the body runs to a continuation that holds the
  inputs as they were, the accumulator with the body's stores written, and the output block with its store written;
  the lists of stores are found by running the body.
-/
import proofs.«175180_j59605556134109_2_alg».proof.Proof.RunBKernelIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_C (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S1024x1 .i32) (x3 : Vec F S1x2048 .i32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__npair_kernel i arg2 harg2 arg3 harg3 arg4 harg4 arg5 harg5 arg6 harg6 arg7 harg7) K } := by
  refine ⟨?_, ?_, fun E K => ?run⟩
  case run =>
    simp only [cc0__npair_kernel_eq_skeleton]; unfold cc0__npair_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.FrameKernelIdeal.lean ====
/-
  The body obligation of the one pallas_call, and what its output and its accumulator hold after each grid point.

  After point `t` (row tile `t / 4`, column tile `t % 4`) the accumulator holds the sum of the row sums of the
  column tiles `0 … t % 4` of that row tile: it is zeroed when the column tile is 0 and added to at every point;
  when the column tile is 3 the output block holds the logarithm of the accumulator. `outsAt0` states this by
  recursion on the point through the three cases' runs; the region's invariant before a point is the accumulator at
  what the point before left (anything before the first point); the proof data name each input's staging buffer
  at its block and the output's at `outsAt0`; `sound_body` is the body's triple at a point, by cases on the
  column tile.
-/
import proofs.«175180_j59605556134109_2_alg».proof.Proof.RunCKernelIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the output block's staging buffer (nothing is stored: a placeholder nothing consults, the window being idle there). -/
def out0_A_4 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S1024x1 .i32) (x3 : Vec F S1x2048 .i32) : Vec F S1024x1 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores into the accumulator cover it. -/
theorem scover0_A_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S1024x1 .i32) (x3 : Vec F S1x2048 .i32) (y : S1024x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x1.size (by sl_kernel_rfl) y

/-- What case A leaves in the accumulator: its stores read back. -/
def sout0_A_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S1024x1 .i32) (x3 : Vec F S1x2048 .i32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- What case B leaves in the output block's staging buffer (nothing is stored: a placeholder nothing consults, the window being idle there). -/
def out0_B_4 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S1024x1 .i32) (x3 : Vec F S1x2048 .i32) (xs0 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's stores into the accumulator cover it. -/
theorem scover0_B_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S1024x1 .i32) (x3 : Vec F S1x2048 .i32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x1.size (by sl_kernel_rfl) y

/-- What case B leaves in the accumulator: its stores read back. -/
def sout0_B_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S1024x1 .i32) (x3 : Vec F S1x2048 .i32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- In case C the one store into the output block covers it. -/
theorem cover0_C_4 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S1024x1 .i32) (x3 : Vec F S1x2048 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y

/-- What case C leaves in the output block's staging buffer: its store read back. -/
def out0_C_4 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S1024x1 .i32) (x3 : Vec F S1x2048 .i32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's stores into the accumulator cover it. -/
theorem scover0_C_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S1024x1 .i32) (x3 : Vec F S1x2048 .i32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y

/-- What case C leaves in the accumulator: its stores read back. -/
def sout0_C_0 (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S1024x1 .i32) (x3 : Vec F S1x2048 .i32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output block and the accumulator hold after each point -/

def outsAt0 (c : Dev nD) : (n : ℕ) → n < cfg0.N → Vec F S1024x1 .f32 × Vec F S1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

theorem outsAt0_A (c : Dev nD) (t : Fin cfg0.N) (h0 : t.val % 4 = 0) (h1 : ¬t.val % 4 = 3) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the accumulator at anything; afterwards at
    what the point before left in it. -/
def PhiS (c : Dev nD) : (n : ℕ) → n ≤ cfg0.N → sProp 𝕄
  | 0, _ => iprop(∃ d, owns (c : Thread nD τ) scM0_0 fullShare d)
  | n + 1, hn => owns (c : Thread nD τ) scM0_0 fullShare ((outsAt0 m c n hn).2)

theorem PhiS_zero (c : Dev nD) (n : ℕ) (h : n ≤ cfg0.N) (hz : n = 0) : PhiS m c n h = iprop(∃ d, owns (c : Thread nD τ) scM0_0 fullShare d) := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The proof data -/

/-- The arrays as the region finds them; after the body at point `t` each input's buffer at its block and the
    output's at `outsAt0`; the invariant on the accumulator; nothing owed. The embeddings' array is read by two
    windows, the row tile's and the column tile's: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0_0 t) fullShare (iblk m c 0 t) := by
  unfold Dat.leavesExact; rw [liveAt0_0 _, after0_0]
theorem leaves_in1 (c : Dev nD) (t : Fin cfg0.N) : (dats m 0 c).leavesExact 1 t = owns (c : Thread nD τ) (ms0_1 t) fullShare (iblk m c 1 t) := by
  unfold Dat.leavesExact; rw [liveAt0_1 _, after0_1]
theorem leaves_in2 (c : Dev nD) (t : Fin cfg0.N) : (dats m 0 c).leavesExact 2 t = owns (c : Thread nD τ) (ms0_2 t) fullShare (iblk m c 2 t) := by
  unfold Dat.leavesExact; rw [liveAt0_2 _, after0_2]
theorem leaves_in3 (c : Dev nD) (t : Fin cfg0.N) : (dats m 0 c).leavesExact 3 t = owns (c : Thread nD τ) (ms0_3 t) fullShare (iblk m c 3 t) := by
  unfold Dat.leavesExact; rw [liveAt0_3 _, after0_3]

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 32 := lt_of_lt_of_eq t.isLt (show cfg0.N = 32 from N_0)
  by_cases h0 : t.val % 4 = 0
  · by_cases h1 : t.val % 4 = 3
    · exfalso; omega
    · rw [Dat.leavesExact_idle (dats m 0 c) 4 t (idleAt0_4 t (fun h => h1 ((hcond0_1 t).mp h))) (noFlush0_4 t (fun h => h1 ((hcond0_1 t).mp h)))]
      rw [outsAt0_A m c t h0 h1]
      unfold sout0_A_0; (try dsimp only)
      by_cases hz : t.val = 0
      · rw [PhiS_castSucc m c t, PhiS_zero m c _ _ hz]
        iintro ⟨HS0, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
      · rw [PhiS_castSucc m c t, PhiS_pos m c _ _ hz]
        iintro ⟨HS0, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0]
        · unfold owns; iexists _; isplitr
          swap; · iexact HS0
          ipureintro; exact View.read_writes_of_cover _ _ _ _ _ (scover0_A_0 c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      have hz : t.val ≠ 0 := by omega
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨HS0, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.PiecesKernelIdeal.lean ====
/-
  What each case's run left, through the body's payloads.

  Running the body finds, per case, the list of stores into the accumulator and into the output block. Each store
  covers its whole buffer, so what a buffer ends with is its last store's payload: the accumulator ends at the tile's
  row sums added to what it held (zero in case A, where it was just zeroed; what the point before left in cases B and C),
  and in case C the output block ends at the logarithm of that.
-/
import proofs.«175180_j59605556134109_2_alg».proof.Proof.FrameKernelIdeal
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; fin_cases a <;> rfl

theorem sout0_A_eq (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 : Vec F S1024x128 .bf16) (x1 : Vec F S2048x128 .bf16) (x2 : Vec F S1024x1 .i32) (x3 : Vec F S1x2048 .i32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero hz2]
  simp only [View.readAt_eq_ld, harg2.read_unread, harg3.read_unread, harg4.read_unread, harg5.read_unread, harg7.read_unread,
    View.ld_unit_zero (S := S1024x128) hz2, View.ld_unit_zero (S := S2048x128) hz2, View.ld_unit_zero (S := S1024x1) hz2, View.ld_unit_zero (S := S1x2048) hz2]
  exact congrArg _ (View.readCov_unit_zero (S := S1024x1) arg7.view hz2 inb_S1024x1_S1024x1_0_0 _)

theorem sout0_B_eq (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 : Vec F S1024x128 .bf16) (x1 : Vec F S2048x128 .bf16) (x2 : Vec F S1024x1 .i32) (x3 : Vec F S1x2048 .i32) (xs0 : Vec F S1024x1 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_cons_unit_zero hz2]
  simp only [View.readAt_eq_ld, harg2.read_unread, harg3.read_unread, harg4.read_unread, harg5.read_unread, harg7.read_unread,
    View.ld_unit_zero (S := S1024x128) hz2, View.ld_unit_zero (S := S2048x128) hz2, View.ld_unit_zero (S := S1024x1) hz2, View.ld_unit_zero (S := S1x2048) hz2]

theorem sout0_C_eq (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S1024x1 .i32) (x3 : Vec F S1x2048 .i32) (xs0 : Vec F S1024x1 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_cons_unit_zero hz2]
  simp only [View.readAt_eq_ld, harg2.read_unread, harg3.read_unread, harg4.read_unread, harg5.read_unread, harg7.read_unread,
    View.ld_unit_zero (S := S1024x128) hz2, View.ld_unit_zero (S := S2048x128) hz2, View.ld_unit_zero (S := S1024x1) hz2, View.ld_unit_zero (S := S1x2048) hz2]

theorem out0_C_eq (c : Dev nD) (i : grid0.Coords) (arg2 : Memref sig .tc .vmem S1024x128 .bf16) (harg2 : arg2.IsWhole) (arg3 : Memref sig .tc .vmem S2048x128 .bf16) (harg3 : arg3.IsWhole) (arg4 : Memref sig .tc .vmem S1024x1 .i32) (harg4 : arg4.IsWhole) (arg5 : Memref sig .tc .vmem S1x2048 .i32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 : Vec F S1024x128 .bf16) (x1 : Vec F S2048x128 .bf16) (x2 : Vec F S1024x1 .i32) (x3 : Vec F S1x2048 .i32) (xs0 : Vec F S1024x1 .f32) :
    out0_C_4 c i arg2 harg2 arg3 harg3 arg4 harg4 arg5 harg5 arg6 harg6 arg7 harg7 hc0 hc1 x0 x1 x2 x3 xs0 = k0_pay3 (k0_pay2 x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_cons_unit_zero hz2]
  simp only [View.readAt_eq_ld, harg2.read_unread, harg3.read_unread, harg4.read_unread, harg5.read_unread, harg7.read_unread,
    View.ld_unit_zero (S := S1024x128) hz2, View.ld_unit_zero (S := S2048x128) hz2, View.ld_unit_zero (S := S1024x1) hz2, View.ld_unit_zero (S := S1x2048) hz2]
  exact congrArg _ (View.readCov_unit_zero (S := S1024x1) arg7.view hz2 inb_S1024x1_S1024x1_0_0 _)

end Cert.KernelIdeal.Hand

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.Spec.lean ====
/-
  The loss both programs compute, on the extended reals.

  For embeddings e (8192 rows of 128 features) and labels l (8192 words): the similarity of rows r and c is
  s(r, c) = ∑ₖ e(r, k) · e(c, k); the term of the pair is exp(0.1 − s) where the labels agree and exp(s − 0.1) where they
  differ; a row's value is the logarithm of the sum of its 8192 terms; the loss is the sum of the rows' values
  divided by 8192. The margin 0.1 is the same f32 word in both programs, so its value never matters. One program
  takes the exponential of the selected argument, the other selects between the two exponentials: the same number,
  whichever way the comparison falls.
-/
import Idealize.ShloMosaic.PureOps.Ideal
import Idealize.ShloMosaic.Lib.ValueIdx

noncomputable section

namespace Cert.NPairSpec

open Idealize.ShloMosaic Idealize.ShloMosaic.ValueIdx
open scoped BigOperators

/-- The margin: the f32 word of 0.1 read on the extended reals. -/
def marg : EReal := Ideal.ofBits .f32 0x3DCCCCCD#32

/-- One pair's term from the two labels' words and the similarity. -/
def entry (a b : BitVec 32) (s : EReal) : EReal :=
  Ideal.exp (Scalar.select (IntOp.cmpi .eq a b) (marg - s) (s - marg))

/-- Selecting between the two exponentials is the exponential of the selected argument. -/
theorem entry_select (a b : BitVec 32) (s : EReal) :
    Scalar.select (IntOp.cmpi .eq a b) (Ideal.exp (marg - s)) (Ideal.exp (s - marg)) = entry a b s := by
  unfold entry Scalar.select
  split <;> rfl

/-- The term of row `r` and column `col`. -/
def term (e : (⟨2, ![8192, 128]⟩ : Shape).Idx → EReal) (l : (⟨1, ![8192]⟩ : Shape).Idx → BitVec 32) (r col : Fin 8192) : EReal :=
  entry (l (ix1 r)) (l (ix1 col)) (∑ k : Fin 128, e (ix2 r k) * e (ix2 col k))

/-- A row's value: the logarithm of the sum of its 8192 terms. -/
def rowVal (e : (⟨2, ![8192, 128]⟩ : Shape).Idx → EReal) (l : (⟨1, ![8192]⟩ : Shape).Idx → BitVec 32) (r : Fin 8192) : EReal :=
  Ideal.log (∑ col : Fin 8192, term e l r col)

/-- The loss: the zero word plus the sum of the rows' values, divided by the word of 8192. -/
def loss (e : (⟨2, ![8192, 128]⟩ : Shape).Idx → EReal) (l : (⟨1, ![8192]⟩ : Shape).Idx → BitVec 32) : EReal :=
  Ideal.div (Ideal.ofBits .f32 0x00000000#32 + ∑ a : Fin 8192, rowVal e l a) (Ideal.ofBits .f32 0x46000000#32)

end Cert.NPairSpec

end
-- ==== Proof.TileValue.lean ====
/-
  The body's arithmetic on the extended reals, read at a row.

  For a row tile of 1024 embeddings `a`, a column tile of 2048 embeddings `b`, the row tile's labels `la` (a column)
  and the column tile's labels `lb` (a row), the body forms the similarities s(p, q) = ∑ₖ a(p, k) · b(q, k) (the matrix
  unit contracts the feature axis; the operand formats do not matter on the extended reals), takes per entry
  exp(0.1 − s) where the labels agree and exp(s − 0.1) where they differ — one exponential of a selected argument —,
  sums each row over the 2048 lanes and adds the row sums to the accumulator. At row p that is
  acc(p) + ∑_q entry (la p) (lb q) (s(p, q)). The zeroing payload is the zero vector and the epilogue's the logarithm.
-/
import proofs.«175180_j59605556134109_2_alg».proof.Proof.Gen.KernelIdeal.Skeleton
import proofs.«175180_j59605556134109_2_alg».proof.Proof.LibPlainDot
import proofs.«175180_j59605556134109_2_alg».proof.Proof.LibKeepdims
import proofs.«175180_j59605556134109_2_alg».proof.Proof.Spec
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen
open Idealize.ShloMosaic Idealize.ShloMosaic.ValueIdx Cert.NPairSpec
open scoped BigOperators

/-- The tile's similarity at (p, q): the row tile's embedding p against the column tile's embedding q. -/
theorem sim_apply (x0 : FVec Ideal S1024x128 .bf16) (x1 : FVec Ideal S2048x128 .bf16) (p : Fin 1024) (q : Fin 2048) :
    matmul (F := Ideal) dot_S1024x128_S128x2048_S1024x2048_1_0_0_1_n_n none (shapeCast S1024x128 x0 shapeCasts_S1024x128_S1024x128 : FVec Ideal S1024x128 .bf16)
      (transpose S128x2048 [1, 0] (shapeCast S2048x128 x1 shapeCasts_S2048x128_S2048x128 : FVec Ideal S2048x128 .bf16) transposes_S2048x128_p1_0_S128x2048 : FVec Ideal S128x2048 .bf16)
      (constant S1024x2048 .f32 0x00000000#32) (ix2 p q) = ∑ k : Fin 128, x0 (ix2 p k) * x1 (ix2 q k) := by
  rw [shapeCast_self, shapeCast_self]
  refine (Ideal.matmul_constant_zero_apply _ none _ _ _).trans ?_
  refine (Cert.PlainDot.contraction_eq (M := 1024) (K := 128) (N := 2048) x0 (transpose S128x2048 [1, 0] x1 transposes_S2048x128_p1_0_S128x2048 : FVec Ideal S128x2048 .bf16) p q).trans ?_
  exact Finset.sum_congr rfl fun k _ => congrArg (x0 (ix2 p k) * ·) (transpose_ix2_apply x1 transposes_S2048x128_p1_0_S128x2048 k q)

/-- The row tile's label at (p, q) of the spread column. -/
theorem la_apply (x2 : Vec Ideal S1024x1 .i32) (p : Fin 1024) (q : Fin 2048) :
    broadcastTo S1024x2048 (shapeCast S1024x1 x2 shapeCasts_S1024x1_S1024x1) broadcasts_S1024x1_S1024x2048 (ix2 p q) = x2 (ix2 p (0 : Fin 1)) := by
  rw [shapeCast_self]; exact Keepdims.broadcastTo_a1_ab_apply _ _ p q

/-- The column tile's label at (p, q) of the spread row. -/
theorem lb_apply (x3 : Vec Ideal S1x2048 .i32) (p : Fin 1024) (q : Fin 2048) :
    broadcastTo S1024x2048 (shapeCast S1x2048 x3 shapeCasts_S1x2048_S1x2048) broadcasts_S1x2048_S1024x2048 (ix2 p q) = x3 (ix2 (0 : Fin 1) q) := by
  rw [shapeCast_self]; exact broadcastTo_1b_ab_apply _ _ p q

/-- The accumulating payload at row p: what the accumulator held there plus the tile's row sum of entry terms. -/
theorem pay2_apply (x0 : Vec Ideal S1024x128 .bf16) (x1 : Vec Ideal S2048x128 .bf16) (x2 : Vec Ideal S1024x1 .i32) (x3 : Vec Ideal S1x2048 .i32)
    (acc : Vec Ideal S1024x1 .f32) (p : Fin 1024) (z : Fin 1) :
    k0_pay2 (F := Ideal) x0 x1 x2 x3 acc (ix2 p z)
      = acc (ix2 p z) + ∑ q : Fin 2048, entry (x2 (ix2 p (0 : Fin 1))) (x3 (ix2 (0 : Fin 1) q)) (∑ k : Fin 128, x0 (ix2 p k) * x1 (ix2 q k)) := by
  unfold k0_pay2
  refine (congrFun (shapeCast_self _ _) _).trans ?_
  refine congrArg (acc (ix2 p z) + ·) ?_
  refine (Keepdims.shapeCast_a_a1_apply _ _ p z).trans ?_
  refine (Keepdims.laneSum_apply _ _ _ _ p).trans ?_
  refine Finset.sum_congr rfl fun q _ => ?_
  have hs := sim_apply x0 x1 p q
  have h2 := la_apply x2 p q
  have h3 := lb_apply x3 p q
  show Ideal.exp (Scalar.select (IntOp.cmpi .eq _ _) (_ - _) (_ - _)) = _
  unfold entry
  rw [h2, h3, hs]
  rfl

/-- The zeroing payload is the zero vector. -/
theorem pay1_apply (i : S1024x1.Idx) : k0_pay1 (F := Ideal) i = 0 := by
  unfold k0_pay1
  refine (congrFun (shapeCast_self _ _) _).trans ?_
  exact Ideal.ofBits_zero_f32

/-- The epilogue's payload is the logarithm, entry by entry. -/
theorem pay3_apply (v : Vec Ideal S1024x1 .f32) (i : S1024x1.Idx) : k0_pay3 (F := Ideal) v i = Ideal.log (v i) := rfl

end Cert.KernelIdeal.Tile

end
-- ==== Proof.RowSums.lean ====
/-
  The result array of the pallas_call, on the extended reals, as one function of the arrays the region finds.

  Write E for the cast embeddings, lc for the labels as a column and lr for the labels as a row. The term of row r
  and column c is T(r, c) = entry (lc r) (lr c) (∑ₖ E(r, k) · E(c, k)); the row's block sum over column tile j is
  ∑_{q < 2048} T(r, 2048 · j + q). After point t (row tile t / 4, column tile t % 4) the accumulator holds, at row p of
  the tile, the sum of the block sums of the column tiles 0 … t % 4 of row 1024 · (t / 4) + p — by induction on the
  point, the accumulator being zeroed at column tile 0 and added to at every point. At column tile 3 the output block
  holds the logarithm of that, the four block sums of the row; the output blocks tile the result array, which
  therefore ends holding, at row r, the logarithm of the sum of the row's four block sums.
-/
import proofs.«175180_j59605556134109_2_alg».proof.Proof.PiecesKernelIdeal
import proofs.«175180_j59605556134109_2_alg».proof.Proof.TileValue

set_option maxRecDepth 16384

noncomputable section

namespace Cert.KernelIdeal.Hand

open Cert.KernelIdeal Cert.KernelIdeal.Gen Cert.KernelIdeal.Tile Cert.NPairSpec
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

/-! ## The arrays the region finds, read at natural-number positions (zero outside their extents) -/

def En (c : Dev nD) (r k : ℕ) : EReal :=
  if h : r < 8192 ∧ k < 128 then (V (F := Ideal) m c main_v0 : S8192x128.Idx → EReal) (ix2 ⟨r, h.1⟩ ⟨k, h.2⟩) else 0
def Lc (c : Dev nD) (r : ℕ) : BitVec 32 :=
  if h : r < 8192 then (V (F := Ideal) m c main_v1 : S8192x1.Idx → BitVec 32) (ix2 ⟨r, h⟩ (0 : Fin 1)) else 0#32
def Lr (c : Dev nD) (r : ℕ) : BitVec 32 :=
  if h : r < 8192 then (V (F := Ideal) m c main_v2 : S1x8192.Idx → BitVec 32) (ix2 (0 : Fin 1) ⟨r, h⟩) else 0#32

/-- The term of row `r` and column `col`. -/
def Tn (c : Dev nD) (r col : ℕ) : EReal := entry (Lc m c r) (Lr m c col) (∑ k : Fin 128, En m c r k.val * En m c col k.val)
/-- The block sum of row `r` over column tile `j`. -/
def rowBlk (c : Dev nD) (r j : ℕ) : EReal := ∑ q : Fin 2048, Tn m c r (2048 * j + q.val)
/-- The row's value: the logarithm of the sum of its four block sums. -/
def rowLog (c : Dev nD) (r : ℕ) : EReal := Ideal.log (∑ j ∈ Finset.range 4, rowBlk m c r j)
/-- The result array. -/
def Gout (c : Dev nD) : S8192x1.Idx → EReal := fun i => rowLog m c (i 0).val

/-! ## The windows' block indices over the grid -/

theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = 0 :=
  (by decide +kernel : ∀ t : Fin grid0.N, _)

/-! ## Each input block read at an entry -/

/-- The four input blocks of point `t`, at their vector types: the row tile's embeddings, the column tile's
    embeddings, the row tile's labels (a column), the column tile's labels (a row). -/
abbrev bl0 (c : Dev nD) (t : Fin cfg0.N) : Vec Ideal S1024x128 .bf16 := iblk (F := Ideal) m c 0 t
abbrev bl1 (c : Dev nD) (t : Fin cfg0.N) : Vec Ideal S2048x128 .bf16 := iblk (F := Ideal) m c 1 t
abbrev bl2 (c : Dev nD) (t : Fin cfg0.N) : Vec Ideal S1024x1 .i32 := iblk (F := Ideal) m c 2 t
abbrev bl3 (c : Dev nD) (t : Fin cfg0.N) : Vec Ideal S1x2048 .i32 := iblk (F := Ideal) m c 3 t

theorem blk0 (c : Dev nD) (t : Fin cfg0.N) (p : Fin 1024) (k : Fin 128) :
    bl0 m c t (ix2 p k) = En m c (1024 * (t.val / 4) + p.val) k.val := by
  have hN : t.val < 32 := lt_of_lt_of_eq t.isLt N_0
  obtain ⟨e0, e1, -⟩ := idx_facts t
  have hp := p.isLt; have hk := k.isLt
  unfold En
  rw [dif_pos ⟨by omega, hk⟩]
  show V m c main_v0 (((cfg0.win 0).blk t).view.emb (ix2 p k)) = V m c main_v0 _
  refine congrArg (V m c main_v0) (funext fun a => Fin.ext ?_)
  match a with
  | ⟨0, _⟩ => show win0_0.index t (0 : Fin 2) * 1024 + 1 * p.val = 1024 * (t.val / 4) + p.val; omega
  | ⟨1, _⟩ => show win0_0.index t (1 : Fin 2) * 128 + 1 * k.val = k.val; omega

theorem blk1 (c : Dev nD) (t : Fin cfg0.N) (q : Fin 2048) (k : Fin 128) :
    bl1 m c t (ix2 q k) = En m c (2048 * (t.val % 4) + q.val) k.val := by
  have hN : t.val < 32 := lt_of_lt_of_eq t.isLt N_0
  obtain ⟨-, -, e0, e1, -⟩ := idx_facts t
  have hq := q.isLt; have hk := k.isLt
  unfold En
  rw [dif_pos ⟨by omega, hk⟩]
  show V m c main_v0 (((cfg0.win 1).blk t).view.emb (ix2 q k)) = V m c main_v0 _
  refine congrArg (V m c main_v0) (funext fun a => Fin.ext ?_)
  match a with
  | ⟨0, _⟩ => show win0_1.index t (0 : Fin 2) * 2048 + 1 * q.val = 2048 * (t.val % 4) + q.val; omega
  | ⟨1, _⟩ => show win0_1.index t (1 : Fin 2) * 128 + 1 * k.val = k.val; omega

theorem blk2 (c : Dev nD) (t : Fin cfg0.N) (p : Fin 1024) :
    bl2 m c t (ix2 p (0 : Fin 1)) = Lc m c (1024 * (t.val / 4) + p.val) := by
  have hN : t.val < 32 := lt_of_lt_of_eq t.isLt N_0
  obtain ⟨-, -, -, -, e0, e1, -⟩ := idx_facts t
  have hp := p.isLt
  unfold Lc
  rw [dif_pos (by omega)]
  show V m c main_v1 (((cfg0.win 2).blk t).view.emb (ix2 p (0 : Fin 1))) = V m c main_v1 _
  refine congrArg (V m c main_v1) (funext fun a => Fin.ext ?_)
  match a with
  | ⟨0, _⟩ => show win0_2.index t (0 : Fin 2) * 1024 + 1 * p.val = 1024 * (t.val / 4) + p.val; omega
  | ⟨1, _⟩ => show win0_2.index t (1 : Fin 2) * 1 + 1 * 0 = 0; omega

theorem blk3 (c : Dev nD) (t : Fin cfg0.N) (q : Fin 2048) :
    bl3 m c t (ix2 (0 : Fin 1) q) = Lr m c (2048 * (t.val % 4) + q.val) := by
  have hN : t.val < 32 := lt_of_lt_of_eq t.isLt N_0
  obtain ⟨-, -, -, -, -, -, e0, e1, -⟩ := idx_facts t
  have hq := q.isLt
  unfold Lr
  rw [dif_pos (by omega)]
  show V m c main_v2 (((cfg0.win 3).blk t).view.emb (ix2 (0 : Fin 1) q)) = V m c main_v2 _
  refine congrArg (V m c main_v2) (funext fun a => Fin.ext ?_)
  match a with
  | ⟨0, _⟩ => show win0_3.index t (0 : Fin 2) * 1 + 1 * 0 = 0; omega
  | ⟨1, _⟩ => show win0_3.index t (1 : Fin 2) * 2048 + 1 * q.val = 2048 * (t.val % 4) + q.val; omega

/-! ## One point -/

/-- An entry of the tile at point `t` is the term of its global row and column. -/
theorem tile_entry (c : Dev nD) (t : Fin cfg0.N) (p : Fin 1024) (q : Fin 2048) :
    entry (bl2 m c t (ix2 p (0 : Fin 1))) (bl3 m c t (ix2 (0 : Fin 1) q))
        (∑ k : Fin 128, (bl0 m c t (ix2 p k) : EReal) * (bl1 m c t (ix2 q k) : EReal))
      = Tn m c (1024 * (t.val / 4) + p.val) (2048 * (t.val % 4) + q.val) := by
  unfold Tn
  rw [blk2, blk3]
  exact congrArg _ (Finset.sum_congr rfl fun k _ => by rw [blk0, blk1])

/-- The accumulating payload at point `t`: the accumulator plus the row's block sum over the point's column tile. -/
theorem point_acc (c : Dev nD) (t : Fin cfg0.N) (acc : Vec Ideal S1024x1 .f32) (p : Fin 1024) (z : Fin 1) :
    k0_pay2 (F := Ideal) (bl0 m c t) (bl1 m c t) (bl2 m c t) (bl3 m c t) acc (ix2 p z)
      = acc (ix2 p z) + rowBlk m c (1024 * (t.val / 4) + p.val) (t.val % 4) :=
  (pay2_apply (bl0 m c t) (bl1 m c t) (bl2 m c t) (bl3 m c t) acc p z).trans
    (congrArg (acc (ix2 p z) + ·) (Finset.sum_congr rfl fun q _ => tile_entry m c t p q))

theorem acc_step_A (c : Dev nD) (t : Fin cfg0.N) (h0 : t.val % 4 = 0) (p : Fin 1024) (z : Fin 1) :
    (outsAt0 (F := Ideal) m c t.val t.isLt).2 (ix2 p z) = rowBlk m c (1024 * (t.val / 4) + p.val) 0 := by
  have h1 : ¬t.val % 4 = 3 := by omega
  rw [outsAt0_A m c t h0 h1]
  dsimp only
  rw [sout0_A_eq]
  refine (point_acc m c t _ p z).trans ?_
  rw [pay1_apply, zero_add, h0]

theorem acc_step_BC (c : Dev nD) (t : Fin cfg0.N) (h0 : ¬t.val % 4 = 0) (p : Fin 1024) (z : Fin 1) :
    (outsAt0 (F := Ideal) m c t.val t.isLt).2 (ix2 p z)
      = (outsAt0 (F := Ideal) m c (t.val - 1) (Nat.lt_of_le_of_lt (Nat.sub_le _ _) t.isLt)).2 (ix2 p z) + rowBlk m c (1024 * (t.val / 4) + p.val) (t.val % 4) := by
  by_cases h1 : t.val % 4 = 3
  · rw [outsAt0_C m c t h0 h1]
    dsimp only
    rw [sout0_C_eq]
    exact point_acc m c t _ p z
  · rw [outsAt0_B m c t h0 h1]
    dsimp only
    rw [sout0_B_eq]
    exact point_acc m c t _ p z

theorem out_C (c : Dev nD) (t : Fin cfg0.N) (h1 : t.val % 4 = 3) (p : Fin 1024) (z : Fin 1) :
    (outsAt0 (F := Ideal) m c t.val t.isLt).1 (ix2 p z) = Ideal.log ((outsAt0 (F := Ideal) m c t.val t.isLt).2 (ix2 p z)) := by
  have h0 : ¬t.val % 4 = 0 := by omega
  rw [outsAt0_C m c t h0 h1]
  dsimp only
  rw [out0_C_eq, sout0_C_eq]
  rfl

/-- THE ACCUMULATOR after point `n`: the block sums of the column tiles `0 … n % 4` of each row of row tile `n / 4`. -/
theorem acc_at (c : Dev nD) : ∀ (n : ℕ) (hn : n < cfg0.N) (p : Fin 1024) (z : Fin 1),
    (outsAt0 (F := Ideal) m c n hn).2 (ix2 p z) = ∑ j ∈ Finset.range (n % 4 + 1), rowBlk m c (1024 * (n / 4) + p.val) j := by
  intro n
  induction n with
  | zero =>
    intro hn p z
    rw [Finset.sum_range_one]
    exact acc_step_A m c ⟨0, hn⟩ rfl p z
  | succ n ih =>
    intro hn p z
    by_cases h0 : (n + 1) % 4 = 0
    · rw [h0, Finset.sum_range_one]
      exact acc_step_A m c ⟨n + 1, hn⟩ h0 p z
    · refine (acc_step_BC m c ⟨n + 1, hn⟩ h0 p z).trans ?_
      have ih' := ih (Nat.lt_of_succ_lt hn) p z
      have hq : (n + 1) / 4 = n / 4 := by omega
      have hr : (n + 1) % 4 = n % 4 + 1 := by omega
      show (outsAt0 (F := Ideal) m c n _).2 (ix2 p z) + rowBlk m c (1024 * ((n + 1) / 4) + p.val) ((n + 1) % 4) = _
      rw [ih', hq, hr]
      exact (Finset.sum_range_succ _ _).symm

/-- The output block at the last column tile of a row tile: each row's value. -/
theorem out_at (c : Dev nD) (t : Fin cfg0.N) (h1 : t.val % 4 = 3) (p : Fin 1024) (z : Fin 1) :
    (outsAt0 (F := Ideal) m c t.val t.isLt).1 (ix2 p z) = rowLog m c (1024 * (t.val / 4) + p.val) := by
  rw [out_C m c t h1 p z, acc_at m c t.val t.isLt p z, h1]
  rfl

/-! ## From the blocks to the array -/

/-- What point `t` writes back is block `t` of the result array. -/
theorem flushed_eq (c : Dev nD) (t : Fin cfg0.N) (hf : (cfg0.win 4).flush t = true) :
    (dats (F := Ideal) m 0 c).flushed 4 t = ((cfg0.win 4).blk t).view.read (Elt Ideal) (Gout m c) := by
  have h1 : t.val % 4 = 3 := (flush0_4 t).mp hf
  show (cfg0.win 4).cut (grid0.coords t) ((dats (F := Ideal) m 0 c).after 4 t) = _
  rw [after0_4]
  funext j
  obtain ⟨p, z, rfl⟩ : ∃ (p : Fin 1024) (z : Fin 1), j = ix2 p z := ⟨j 0, j 1, eq_ix2 j⟩
  show (outsAt0 (F := Ideal) m c t.val t.isLt).1 (ix2 p z) = Gout m c (((cfg0.win 4).blk t).view.emb (ix2 p z))
  rw [out_at m c t h1 p z]
  unfold Gout
  obtain ⟨-, -, -, -, -, -, -, -, e40, -⟩ := idx_facts t
  have hv : ((((cfg0.win 4).blk t).view.emb (ix2 p z)) 0).val = 1024 * (t.val / 4) + p.val := by
    show win0_4.index t (0 : Fin 2) * 1024 + 1 * p.val = _
    omega
  rw [hv]

theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v3).slice (win0_4.rect t)).set ↔ _
  rw [View.set_slice_whole, Rect.mem_set_unit]
  exact Iff.rfl

/-- Every row of the result array is in the block of its row tile's last point. -/
theorem cover4 (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hlt : 4 * ((i 0).val / 1024) + 3 < cfg0.N := lt_of_lt_of_eq (by omega) N_0.symm
  refine ⟨⟨4 * ((i 0).val / 1024) + 3, hlt⟩, (flush0_4 _).mpr (by show (4 * ((i 0).val / 1024) + 3) % 4 = 3; omega), ?_⟩
  rw [mem_blk4]
  obtain ⟨-, -, -, -, -, -, -, -, e40, e41⟩ := idx_facts ⟨4 * ((i 0).val / 1024) + 3, hlt⟩
  have e40' : win0_4.index ⟨4 * ((i 0).val / 1024) + 3, hlt⟩ (0 : Fin 2) = (i 0).val / 1024 := by rw [e40]; show (4 * ((i 0).val / 1024) + 3) / 4 = _; omega
  intro a
  match a with
  | ⟨0, _⟩ =>
    show win0_4.index _ (0 : Fin 2) * 1024 ≤ (i 0).val ∧ (i 0).val < win0_4.index _ (0 : Fin 2) * 1024 + 1024
    rw [e40']; omega
  | ⟨1, _⟩ =>
    show win0_4.index _ (1 : Fin 2) * 1 ≤ (i 1).val ∧ (i 1).val < win0_4.index _ (1 : Fin 2) * 1 + 1
    rw [e41]; omega

/-- THE RESULT ARRAY after the region. -/
theorem out_final (c : Dev nD) : (dats (F := Ideal) m 0 c).arrAt 4 cfg0.N = Gout m c :=
  (dats (F := Ideal) m 0 c).arrAt_eq_of_cover 4 (Gout m c) (fun t hf => flushed_eq m c t hf) cover4

end Cert.KernelIdeal.Hand

end
-- ==== Proof.RegionKernelIdeal.lean ====
/-
  The run of @main: the cast and the two reshapes, the pallas_call, then the mean of its result.

  @main is three host operations (the embeddings cast to the kernel's operand format, the labels reshaped to a
  column and to a row), the kernel region, and four host operations (the sum of the 8192 row values and its division
  by 8192). Between two of these items core `c` holds every unscoped buffer whole at a valuation: the launch contents,
  then the first stretch applied, then the region's result buffer replaced by what the pipeline wrote back, then
  the second stretch applied. The region is entered by splitting the cast embeddings' buffer in two halves — one
  for the window that reads a row tile of it, one for the window that reads a column tile — and left by joining
  them again. The run concludes: every execution terminates, the two argument arrays end as launched, and the
  result buffer ends at the second stretch's value.
-/
import proofs.«175180_j59605556134109_2_alg».proof.Proof.FrameKernelIdeal
import Idealize.ShloMosaic.Lib.Pipeline.Frame
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- What the region leaves in its result buffer: every row tile's block written back at its last column tile. -/
abbrev outArr (c : Dev nD) : Buf (Elt F) ((c : Thread nD τ).loc main_v3) := (dats m 0 c).arrAt 4 cfg0.N
/-- Core `c`'s unscoped buffers after the region: the result buffer replaced, -/
abbrev V2 (c : Dev nD) : Valuation τ sig (Elt F) := Function.update (V1 m c) main_v3 (outArr m c)
/-- and after the four operations that take the mean. -/
abbrev V3 (c : Dev nD) : Valuation τ sig (Elt F) := StableHlo.after hostOps1 (V2 m c)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
abbrev hostOps0_W : List (Ref sig .tc) := [main_v0, main_v1, main_v2]
abbrev hostOps1_W : List (Ref sig .tc) := [main_cst, main_v4, main_cst_0, main_v5]
theorem hostOps0_writes : (hostOps0 : List (HloOp τ sig (Elt F))).Forall fun op => op.writes ⊆ (hostOps0_W.map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide)⟩)
theorem hostOps1_writes : (hostOps1 : List (HloOp τ sig (Elt F))).Forall fun op => op.writes ⊆ (hostOps1_W.map (Proc.devRef (τ := τ) .tc)).toFinset := by
  simp only [List.Forall]; exact (by simp only [StableHlo.nullary_writes, StableHlo.unary_writes, StableHlo.binary_writes, StableHlo.reshape_writes, Finset.singleton_subset_iff, List.mem_toFinset]; exact ⟨List.mem_map_of_mem (by decide), List.mem_map_of_mem (by decide), List.mem_map_of_mem (by decide), List.mem_map_of_mem (by decide)⟩)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ ([main_v3] : List (Ref sig .tc))) : V2 m c r = V1 m c r := by
  simp only [V2, Function.update_of_ne (StableHlo.devRef_ne_of_ne (List.ne_of_not_mem_cons h) : (Proc.devRef .tc r : DevRef τ sig) ≠ Proc.devRef .tc main_v3)]
theorem V2_out (c : Dev nD) : V2 m c main_v3 = outArr m c := by
  simp only [V2, Function.update_self]
theorem V3_of (c : Dev nD) (r : Ref sig .tc) (h : r ∉ hostOps1_W) : V3 m c r = V2 m c r :=
  StableHlo.after_of_writes_sub hostOps1 _ hostOps1_writes h

/-- No item writes an argument: each reaches the end as launched. -/
theorem V3_main_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_main_arg1 (c : Dev nD) : V3 m c main_arg1 = m ((c : Thread nD τ).loc main_arg1) :=
  (V3_of m c main_arg1 (by decide)).trans <| (V2_of m c main_arg1 (by decide)).trans <| (V1_of m c main_arg1 (by decide)).trans rfl

/-! ## The arrays at the region's two ends -/

/-- The distinct buffers behind the five windows, listed: the cast embeddings (two windows), the labels' column,
    the labels' row, the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)
          ∗ (((c : Thread nD τ).loc main_v2) ↦{fullShare} W main_v2) ∗ (((c : Thread nD τ).loc main_v3) ↦{fullShare} W main_v3)) := by
  unfold Pipeline.arrBufs; exact bigSep_eq_bigSepL_of_eq [main_v0, main_v1, main_v2, main_v3] (by decide) (by decide) _

/-- The pipeline's arrays, window by window at its share: the cast embeddings' two halves, the rest whole. -/
theorem arrays_eq (c : Dev nD) (Fn : (w : Fin cfg0.W) → Buf (Elt F) ((cfg0.win w).arr.view.loc (c : Thread nD τ))) :
    ((dats m 0 c).arrays Fn : sProp 𝕄)
      = iprop((((c : Thread nD τ).loc main_v0) ↦{fullShare.left} Fn 0) ∗ (((c : Thread nD τ).loc main_v0) ↦{fullShare.right} Fn 1)
          ∗ (((c : Thread nD τ).loc main_v1) ↦{fullShare} Fn 2) ∗ (((c : Thread nD τ).loc main_v2) ↦{fullShare} Fn 3)
          ∗ (((c : Thread nD τ).loc main_v3) ↦{fullShare} Fn 4)) := by
  unfold Dat.arrays
  rw [bigSep_W0, (arr_whole0 0).set_eq_univ, (arr_whole0 2).set_eq_univ, (arr_whole0 3).set_eq_univ, (arr_whole0 4).set_eq_univ]
  rfl

theorem arrAt_in0 (c : Dev nD) (n : ℕ) : (dats m 0 c).arrAt 0 n = V m c main_v0 := ((dats m 0 c).arrAt_in 0 rfl n).trans (A_eq m c 0)
theorem arrAt_in1 (c : Dev nD) (n : ℕ) : (dats m 0 c).arrAt 1 n = V m c main_v0 := ((dats m 0 c).arrAt_in 1 rfl n).trans (A_eq m c 1)
theorem arrAt_in2 (c : Dev nD) (n : ℕ) : (dats m 0 c).arrAt 2 n = V m c main_v1 := ((dats m 0 c).arrAt_in 2 rfl n).trans (A_eq m c 2)
theorem arrAt_in3 (c : Dev nD) (n : ℕ) : (dats m 0 c).arrAt 3 n = V m c main_v2 := ((dats m 0 c).arrAt_in 3 rfl n).trans (A_eq m c 3)

/-! ## The items as segments -/

abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev EP : Emb (UR sig nD τ) (MT nD τ sig Unit (Elt F) ℕ (UR sig nD τ) ℕ) := emb₁

/-- What rides beside the buffers: the core owes nothing. -/
abbrev R (c : Dev nD) : sProp 𝕄 := iprop(∃ W, owes (c : Thread nD τ) (0 : CellTallies nD τ sig Unit) W)

def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
def seg2 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

set_option backward.isDefEq.respectTransparency.types false in
/-- THE REGION: entered from what the first stretch left, the five windows' arrays into the pipeline (the cast
    embeddings split between its two windows), every other unscoped buffer bypassing; left with the result buffer
    at what the pipeline wrote back and everything else as it was. -/
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (V1 m c) = unscopedBufs c (V m c) from (Pipeline.unscopedBufs_held c _).symm,
      Pipeline.unscopedBufs_split₀ cfgs 0 winFacts₀0.arr_unscoped c (V m c), arrBufs_eq, arrays_eq]
    iintro ⟨⟨⟨⟨H0, H1, H2, H3⟩, HZ⟩, HO⟩, -, -⟩
    ihave H0' := (pointsTo_share (PosShare.mem_left_op_right fullShare)).1 $$ H0
    icases H0' with ⟨H0a, H0b⟩
    imodintro
    isplitl [H0a H0b H1 H2 H3]
    · isplitl [H0a]; · iexact H0a
      isplitl [H0b]; · iexact H0b
      isplitl [H1]; · iexact H1
      isplitl [H2]; · iexact H2
      iexact H3
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact HZ
  hin c := by
    rw [show (dats m 0 c).Φ 0 = PhiS m c 0 (Nat.zero_le _) from rfl, PhiS_zero m c 0 _ rfl, scopedRest_acc]
    iintro ⟨-, -, Hr⟩
    iexact Hr
  hout c := by
    rw [Pipeline.ownSems0_none, scopedRest_acc, show (dats m 0 c).Φ (Fin.last cfg0.N) = PhiS m c cfg0.N (Nat.le_refl _) from rfl,
      PhiS_pos m c _ _ (by rw [show cfg0.N = 32 from N_0]; decide)]
    iintro HS
    isplitr; · iempintro
    isplitr; · iempintro
    iexists _; iexact HS
  hexit c := by
    rw [show StableHlo.held (c : Thread nD τ) (Pipeline.ucRefs τ sig) (V2 m c) = unscopedBufs c (fun b => V2 m c b) from (Pipeline.unscopedBufs_held c _).symm,
      Pipeline.unscopedBufs_split₀ cfgs 0 winFacts₀0.arr_unscoped c (fun b => V2 m c b), arrBufs_eq, arrays_eq,
      arrAt_in0, arrAt_in1, arrAt_in2, arrAt_in3, unscopedRest0_eq, unscopedRest0_eq,
      V2_of m c main_v0 (by decide), V2_of m c main_v1 (by decide), V2_of m c main_v2 (by decide), V2_out,
      V2_of m c main_arg0 (by decide), V2_of m c main_arg1 (by decide), V2_of m c main_cst (by decide), V2_of m c main_v4 (by decide),
      V2_of m c main_cst_0 (by decide), V2_of m c main_v5 (by decide)]
    iintro ⟨⟨H0a, H0b, H1, H2, H3⟩, HO, -, HZ⟩
    ihave H0 := (pointsTo_share (PosShare.mem_left_op_right fullShare)).2 $$ [H0a H0b]
    · isplitl [H0a] <;> iassumption
    imodintro
    isplitr [HO]
    · isplitl [H0 H1 H2 H3]
      · isplitl [H0]; · iexact H0
        isplitl [H1]; · iexact H1
        isplitl [H2]; · iexact H2
        iexact H3
      iexact HZ
    · unfold Pipeline.Dat.owesAt Pipeline.owesWithin
      icases HO with ⟨%W, -, HO⟩; iexists W; iexact HO

/-- @main as the list of the three. -/
abbrev segs : List (Seg (pcfgs (F := F)) adm (dats m) () defs₀ Variants.none L lv) := [.host (seg0 m), .region (reg0 m), .host (seg2 m)]

/-- What the run ends with, on every core: the arguments as launched, the result at the mean's value. -/
def QC : PUnit × MemSt nD τ sig (Elt F) → Prop := fun r =>
  ∀ c : Dev nD, r.2.mem ((c : Thread nD τ).loc main_v5) = V3 m c main_v5
    ∧ r.2.mem ((c : Thread nD τ).loc main_arg0) = m ((c : Thread nD τ).loc main_arg0)
    ∧ r.2.mem ((c : Thread nD τ).loc main_arg1) = m ((c : Thread nD τ).loc main_arg1)

set_option backward.isDefEq.respectTransparency.types false in
/-- At the compiled mesh, at any float instance, from any memory with zero counters: every weakly fair execution
    of @main terminates, nothing faulting, and every final state has the result buffer at the second stretch's
    value and both argument arrays unchanged. -/
theorem run_main : θ_run defs (onTc (τ := τ) (main (F := F))) ⟨m, fun _ => 0, ρ⟩ (QC m) :=
  Pipeline.θ_run_regions_kit (pcfgs (F := F)) adm (dats m) () cellOf_inj EP defs₀ Variants.none L lv m ρ main (segs m)
    (fun c Q => by rw [main_segs adm (dats m) () Variants.none L lv (seg0 m) (seg2 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c : Thread nD τ).loc main_v5) = V3 m c main_v5
      ∧ s.mem ((c : Thread nD τ).loc main_arg0) = m ((c : Thread nD τ).loc main_arg0)
      ∧ s.mem ((c : Thread nD τ).loc main_arg1) = m ((c : Thread nD τ).loc main_arg1))
    (hfin := fun c s' => by
      unfold StableHlo.held
      iintro ⟨Hh, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        exact ⟨h (Proc.devRef .tc main_v5) (Finset.mem_filter.mpr ⟨StableHlo.devRef_mem_tcRefs main_v5, by decide⟩),
          (h (Proc.devRef .tc main_arg0) (Finset.mem_filter.mpr ⟨StableHlo.devRef_mem_tcRefs main_arg0, by decide⟩)).trans (V3_main_arg0 m c),
          (h (Proc.devRef .tc main_arg1) (Finset.mem_filter.mpr ⟨StableHlo.devRef_mem_tcRefs main_arg1, by decide⟩)).trans (V3_main_arg1 m c)⟩
      · iexact HSI)
    (hQ := fun _ h => h)

end Cert.KernelIdeal.Hand

end
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.LibBlockSum.lean ====
/-
  A sum over an index type of n · b elements, taken block by block: for any additive commutative monoid and any function on
  Fin N with N = n · b, the total is the sum over the n blocks of the sums over the b elements of each block, element
  (s, r) being the one at position b · s + r.
-/
import Mathlib.Algebra.BigOperators.Fin
import Mathlib.Logic.Equiv.Fin.Basic
import proofs.«175180_j59605556134109_2_alg».proof.Proof.LibSumBlocks

namespace BlockSum

open Finset

theorem pos_lt {n b : ℕ} (s : Fin n) (r : Fin b) : b * s.val + r.val < n * b := by
  have h1 : s.val + 1 ≤ n := s.isLt
  have h2 : r.val < b := r.isLt
  have h3 : b * (s.val + 1) ≤ b * n := Nat.mul_le_mul_left _ h1
  rw [Nat.mul_add_one] at h3
  rw [Nat.mul_comm n b]
  omega

/-- The total over Fin N, N = n · b, block by block. -/
theorem sum_eq_sum_blocks {M : Type*} [AddCommMonoid M] (n b N : ℕ) (hN : n * b = N) (F : Fin N → M) :
    ∑ e : Fin N, F e = ∑ s : Fin n, ∑ r : Fin b, F ⟨b * s.val + r.val, hN ▸ pos_lt s r⟩ := by
  subst hN
  have h := SumBlocks.sum_mul_eq_sum_blocks n b (fun e => if h : e < n * b then F ⟨e, h⟩ else 0)
  have hl : ∑ e : Fin (n * b), F e = ∑ e : Fin (n * b), (fun e => if h : e < n * b then F ⟨e, h⟩ else 0) e.val :=
    Finset.sum_congr rfl fun e _ => by simp only [e.isLt, dite_true]
  rw [hl, h]
  refine Finset.sum_congr rfl fun s _ => Finset.sum_congr rfl fun r _ => ?_
  simp only [pos_lt s r, dite_true]

end BlockSum
-- ==== Proof.LibSumIdx1.lean ====
/-
  A sum over the index set of a vector of extent n is the sum over its one coordinate.
-/
import Idealize.ShloMosaic.Lib.ValueIdx

namespace SumIdx1

open Idealize.ShloMosaic Idealize.ShloMosaic.ValueIdx

/-- A rank-1 index is its coordinate. -/
def idxEquiv1 {n : ℕ} : (⟨1, ![n]⟩ : Shape).Idx ≃ Fin n where
  toFun j := j 0
  invFun a := ix1 a
  left_inv j := (eq_ix1 j).symm
  right_inv _ := rfl

/-- So a sum over the index set is the sum over the coordinate. -/
theorem sum_idx1 {M : Type*} [AddCommMonoid M] {n : ℕ} (f : (⟨1, ![n]⟩ : Shape).Idx → M) :
    ∑ j, f j = ∑ a : Fin n, f (ix1 a) := by
  rw [← Equiv.sum_comp (idxEquiv1 (n := n)).symm f]
  rfl

end SumIdx1
-- ==== Proof.KernelValue.lean ====
/-
  The kernel program's result on the extended reals, as a function of its two arguments.

  The region finds the embeddings cast to the kernel's operand format — the same extended reals — and the labels
  reshaped to a column and to a row — the same words at the matching positions. So the term of row r and column c is
  entry (l r) (l c) (∑ₖ e(r, k) · e(c, k)) of the argument arrays e and l; a row's four block sums add up to its sum over
  all 8192 columns (the sum taken tile by tile: only commutativity and associativity of the addition), and the
  program's result is the mean's two operations applied to the array of the rows' logarithms.
-/
import proofs.«175180_j59605556134109_2_alg».proof.Proof.RowSums
import proofs.«175180_j59605556134109_2_alg».proof.Proof.RegionKernelIdeal
import proofs.«175180_j59605556134109_2_alg».proof.Proof.LibBlockSum
import proofs.«175180_j59605556134109_2_alg».proof.Proof.LibSumIdx1
import proofs.«175180_j59605556134109_2_alg».proof.Proof.Spec
import Idealize.ShloMosaic.Lib.ValueLayout

set_option maxRecDepth 16384

noncomputable section

namespace Cert.KernelIdeal.Hand

open Cert.KernelIdeal Cert.KernelIdeal.Gen Cert.KernelIdeal.Tile
open Idealize.ShloMosaic Idealize.ShloMosaic.TcCoe Idealize.ShloMosaic.ValueIdx
open Idealize.SL Idealize.SL.Sem
open Idealize.ShloMosaic.Pipeline (Dat Cfg Window)
open scoped BigOperators

variable (m : (ℓ : Loc nD τ sig) → Buf (Elt Ideal) ℓ)

open Idealize.ShloMosaic.StableHlo Cert.NPairSpec

/-! ## The arrays the region finds, from the arguments -/

theorem V_v0 (c : Dev nD) (i : S8192x128.Idx) :
    (V (F := Ideal) m c main_v0 : S8192x128.Idx → EReal) i = (m ((c : Thread nD τ).loc main_arg0) : S8192x128.Idx → EReal) i := by
  have e : (V (F := Ideal) m c main_v0 : S8192x128.Idx → EReal)
      = (truncf .bf16 (m ((c : Thread nD τ).loc main_arg0) : FVec Ideal S8192x128 .f32) bitsLt_bf16_f32 : FVec Ideal S8192x128 .bf16) := by
    dsimp only [V, V1, hostOps0]; after_results <;> rfl
  rw [e]; rfl

theorem V_v1 (c : Dev nD) (r : Fin 8192) :
    (V (F := Ideal) m c main_v1 : S8192x1.Idx → BitVec 32) (ix2 r (0 : Fin 1)) = (m ((c : Thread nD τ).loc main_arg1) : S8192.Idx → BitVec 32) (ix1 r) := by
  have e : (V (F := Ideal) m c main_v1 : S8192x1.Idx → BitVec 32)
      = shapeCast S8192x1 (m ((c : Thread nD τ).loc main_arg1) : S8192.Idx → BitVec 32) shapeCasts_S8192_S8192x1 := by
    dsimp only [V, V1, hostOps0]; after_results <;> rfl
  rw [e]; exact Keepdims.shapeCast_a_a1_apply _ _ r 0

theorem V_v2 (c : Dev nD) (r : Fin 8192) :
    (V (F := Ideal) m c main_v2 : S1x8192.Idx → BitVec 32) (ix2 (0 : Fin 1) r) = (m ((c : Thread nD τ).loc main_arg1) : S8192.Idx → BitVec 32) (ix1 r) := by
  have e : (V (F := Ideal) m c main_v2 : S1x8192.Idx → BitVec 32)
      = shapeCast S1x8192 (m ((c : Thread nD τ).loc main_arg1) : S8192.Idx → BitVec 32) shapeCasts_S8192_S1x8192 := by
    dsimp only [V, V1, hostOps0]; after_results <;> rfl
  rw [e]; exact shapeCast_a_1a_apply _ _ 0 r

/-! ## The specification: terms, rows, and the mean, of the argument arrays -/

abbrev argE (c : Dev nD) : S8192x128.Idx → EReal := m ((c : Thread nD τ).loc main_arg0)
abbrev argL (c : Dev nD) : S8192.Idx → BitVec 32 := m ((c : Thread nD τ).loc main_arg1)

theorem En_eq (c : Dev nD) (r : Fin 8192) (k : Fin 128) : En m c r.val k.val = argE m c (ix2 r k) := by
  unfold En; rw [dif_pos ⟨r.isLt, k.isLt⟩]; exact V_v0 m c _
theorem Lc_eq (c : Dev nD) (r : Fin 8192) : Lc m c r.val = argL m c (ix1 r) := by
  unfold Lc; rw [dif_pos r.isLt]; exact V_v1 m c r
theorem Lr_eq (c : Dev nD) (r : Fin 8192) : Lr m c r.val = argL m c (ix1 r) := by
  unfold Lr; rw [dif_pos r.isLt]; exact V_v2 m c r

theorem Tn_eq (c : Dev nD) (r col : Fin 8192) : Tn m c r.val col.val = term (argE m c) (argL m c) r col := by
  unfold Tn term
  rw [Lc_eq, Lr_eq]
  exact congrArg _ (Finset.sum_congr rfl fun k _ => by rw [En_eq, En_eq])

/-- A row's four block sums are its sum over all the columns. -/
theorem row_total (c : Dev nD) (r : Fin 8192) :
    ∑ j ∈ Finset.range 4, rowBlk m c r.val j = ∑ col : Fin 8192, term (argE m c) (argL m c) r col := by
  rw [Finset.sum_range (fun j => rowBlk m c r.val j)]
  refine ((BlockSum.sum_eq_sum_blocks 4 2048 8192 rfl (fun col : Fin 8192 => term (argE m c) (argL m c) r col)).trans ?_).symm
  refine Finset.sum_congr rfl fun s _ => ?_
  unfold rowBlk
  exact Finset.sum_congr rfl fun q _ => (Tn_eq m c r ⟨2048 * s.val + q.val, _⟩).symm

theorem rowLog_eq (c : Dev nD) (r : Fin 8192) : rowLog m c r.val = rowVal (argE m c) (argL m c) r := by
  unfold rowLog rowVal; rw [row_total]

/-! ## The program's result -/

/-- The mean's two host operations, as one function of the array of the rows' values. -/
def meanOf (g : S8192x1.Idx → EReal) : S_.Idx → EReal :=
  Host.divf (F := Ideal) (Host.reduceAdd (F := Ideal) (g : FVec Ideal S8192x1 .f32) (constant (F := Ideal) S_ .f32 0x00000000#32) reducesTo_S8192x1_S_d0_1 h_S_)
    (constant (F := Ideal) S_ .f32 0x46000000#32)

theorem V3_result (c : Dev nD) : (V3 (F := Ideal) m c main_v5 : S_.Idx → EReal) = meanOf (outArr (F := Ideal) m c) := by
  have e2 : V2 (F := Ideal) m c main_v3 = outArr (F := Ideal) m c := V2_out m c
  show StableHlo.after hostOps1 (V2 (F := Ideal) m c) (Proc.devRef .tc main_v5) = _
  after_results
  rw [e2]
  rfl

/-- The mean read on the extended reals: the zero word plus the sum of the rows' values, divided by the word of 8192. -/
theorem meanOf_apply (g : S8192x1.Idx → EReal) (i : S_.Idx) :
    meanOf g i = Ideal.div (Ideal.ofBits .f32 0x00000000#32 + ∑ a : Fin 8192, g (ix2 a (0 : Fin 1))) (Ideal.ofBits .f32 0x46000000#32) := by
  unfold meanOf
  show Ideal.div (Host.reduceAdd (F := Ideal) (g : FVec Ideal S8192x1 .f32) (constant (F := Ideal) S_ .f32 0x00000000#32) reducesTo_S8192x1_S_d0_1 h_S_ i) _ = _
  refine congrArg (Ideal.div · _) ?_
  simp only [Host.reduceAdd, Ideal.hostReduceAdd_def]
  refine (Ideal.hostReduceAdd_total reducesTo_S8192x1_S_d0_1 (fun b => b.elim0) g _ i).trans ?_
  refine congrArg (_ + ·) ?_
  rw [sum_idx2]
  exact Finset.sum_congr rfl fun a _ => Fin.sum_univ_one _

/-- THE KERNEL PROGRAM'S RESULT of its arguments. -/
theorem kernel_result (c : Dev nD) (i : S_.Idx) :
    (V3 (F := Ideal) m c main_v5 : S_.Idx → EReal) i
      = loss (argE m c) (argL m c) := by
  unfold loss
  rw [V3_result, show outArr (F := Ideal) m c = Gout m c from out_final m c, meanOf_apply]
  refine congrArg (fun s => Ideal.div (_ + s) _) (Finset.sum_congr rfl fun a _ => ?_)
  exact rowLog_eq m c a

end Cert.KernelIdeal.Hand

end
-- ==== Proof.RefValue.lean ====
/-
  The reference program's result on the extended reals is the loss of its two arguments.

  The reference forms the whole 8192 × 8192 similarity matrix against the transposed embeddings, compares the labels
  spread as a column and as a row, takes both exponentials and selects, sums each row from the zero word, takes the
  logarithms, sums them from the zero word and divides by 8192. Read operation by operation at an index, that is the
  loss: the transposed operand at (k, c) is the embedding (c, k); the zero word is the neutral element of the sum.
-/
import proofs.«175180_j59605556134109_2_alg».proof.Proof.Gen.ReferenceIdeal.Read
import proofs.«175180_j59605556134109_2_alg».proof.Proof.Spec
import proofs.«175180_j59605556134109_2_alg».proof.Proof.LibSumIdx1

noncomputable section

namespace Cert.ReferenceIdeal.RefValue

open Cert.ReferenceIdeal Cert.ReferenceIdeal.Gen Cert.ReferenceIdeal.Read Cert.NPairSpec
open Idealize.ShloMosaic Idealize.ShloMosaic.ValueIdx
open scoped BigOperators

/-- The similarity of rows `a` and `k`. -/
theorem sim_ref (x0 : (⟨S8192x128, .f32⟩ : BufTy).Contents (Elt Ideal)) (a k : Fin 8192) :
    val_main_v1 (F := Ideal) x0 (ix2 a k) = ∑ k' : Fin 128, x0 (ix2 a k') * x0 (ix2 k k') := by
  rw [val_main_v1_apply]
  refine Finset.sum_congr rfl fun k' _ => ?_
  rw [val_main_v0_apply]
  have e1 : lidx_main_v1 (ix2 a k) k' = ix2 a k' := funext fun b => Fin.ext (by match b with | ⟨0, _⟩ => rfl | ⟨1, _⟩ => rfl)
  have e2 : idx_main_v0 (ridx_main_v1 (ix2 a k) k') = ix2 k k' := funext fun b => Fin.ext (by match b with | ⟨0, _⟩ => rfl | ⟨1, _⟩ => rfl)
  rw [e1, e2]

/-- The selected exponential at (a, k) is the pair's term. -/
theorem term_ref (x0 : (⟨S8192x128, .f32⟩ : BufTy).Contents (Elt Ideal)) (x1 : (⟨S8192, .i32⟩ : BufTy).Contents (Elt Ideal)) (a k : Fin 8192) :
    val_main_v13 (F := Ideal) x0 x1 (ix2 a k) = term x0 x1 a k := by
  rw [val_main_v13_apply, val_main_v6_apply, val_main_v4_apply, val_main_v2_apply, val_main_v5_apply, val_main_v3_apply,
    val_main_v9_apply, val_main_v8_apply, val_main_v7_apply, val_main_cst_apply, val_main_v12_apply, val_main_v11_apply,
    val_main_v10_apply, val_main_cst_0_apply, sim_ref]
  have e4 : idx_main_v2 (idx_main_v4 (ix2 a k)) = ix1 a := funext fun b => Fin.ext (by match b with | ⟨0, _⟩ => rfl)
  have e5 : idx_main_v3 (idx_main_v5 (ix2 a k)) = ix1 k := funext fun b => Fin.ext (by match b with | ⟨0, _⟩ => rfl)
  rw [e4, e5]
  exact entry_select _ _ _

/-- The logarithm of a row's sum is the row's value. -/
theorem row_ref (x0 : (⟨S8192x128, .f32⟩ : BufTy).Contents (Elt Ideal)) (x1 : (⟨S8192, .i32⟩ : BufTy).Contents (Elt Ideal)) (a : Fin 8192) :
    val_main_v15 (F := Ideal) x0 x1 (ix1 a) = rowVal x0 x1 a := by
  rw [val_main_v15_apply, val_main_v14_apply, val_main_cst_1_apply]
  show Ideal.log (Ideal.ofBits .f32 0x00000000#32 + _) = _
  rw [Ideal.ofBits_zero_f32, zero_add]
  unfold rowVal
  refine congrArg Ideal.log (Finset.sum_congr rfl fun k _ => ?_)
  have e : idx_main_v14 (ix1 a) k = ix2 a k := funext fun b => Fin.ext (by match b with | ⟨0, _⟩ => rfl | ⟨1, _⟩ => rfl)
  rw [e]
  exact term_ref x0 x1 a k

/-- THE REFERENCE'S RESULT of its arguments. -/
theorem result_ref (x0 : (⟨S8192x128, .f32⟩ : BufTy).Contents (Elt Ideal)) (x1 : (⟨S8192, .i32⟩ : BufTy).Contents (Elt Ideal)) (i : S_.Idx) :
    val_main_v17 (F := Ideal) x0 x1 i = loss x0 x1 := by
  rw [val_main_v17_apply, val_main_v16_apply, val_main_cst_2_apply, val_main_cst_3_apply]
  unfold loss
  show Ideal.div (Ideal.ofBits .f32 0x00000000#32 + ∑ j : S8192.Idx, val_main_v15 (F := Ideal) x0 x1 j) (Ideal.ofBits .f32 0x46000000#32) = _
  rw [SumIdx1.sum_idx1]
  exact congrArg (fun s => Ideal.div (_ + s) _) (Finset.sum_congr rfl fun a _ => row_ref x0 x1 a)

end Cert.ReferenceIdeal.RefValue

end
-- ==== Proof.lean ====
/-
  The pair loss on 8192 embeddings: the tiled kernel and the plain reference compute the same number.

  With s(r, c) the similarity of embeddings r and c, the loss is the mean over the rows r of
  log ∑_c t(r, c), where t(r, c) = exp(0.1 − s(r, c)) if the labels of r and c agree and exp(s(r, c) − 0.1) if not.
  The reference computes exactly this: the whole similarity matrix, both exponentials, a select, the row sums, the
  logarithms, the mean. The kernel visits the matrix tile by tile — 1024 rows by 2048 columns at a grid point, the
  four column tiles of a row tile in turn — and at each point adds the tile's row sums of exp(selected argument) to an
  accumulator it zeroed at the first column tile; at the last column tile it writes the logarithm of the
  accumulator. On the extended reals a change of operand format is the identity, the matrix unit's product is the
  plain sum of products, exp of a selected argument is the selected exp, and a sum taken in four blocks is the
  sum: addition there is commutative and associative, and nothing else is used — in particular no finiteness of the
  inputs.

  The frames: each kernel program is run as three items — the host operations before the call, the call, the host
  operations after it — over the pipeline library's launch for a list of segments; the call's body is run once per
  control case (first, middle, last column tile). The embeddings' array is read through two windows (a row tile and
  a column tile): each window holds half of the array's ownership, split at the region's entry and joined at its
  exit. The reference has no kernel: its frame is its run with the result dropped. The idealization rewrote nothing, so
  there is nothing to preserve beyond the text itself.
-/
import proofs.«175180_j59605556134109_2_alg».proof.Defs
import proofs.«175180_j59605556134109_2_alg».proof.Proof.Gen.Kernel
import proofs.«175180_j59605556134109_2_alg».proof.Proof.Gen.KernelIdeal
import proofs.«175180_j59605556134109_2_alg».proof.Proof.Gen.ReferenceIdeal
import proofs.«175180_j59605556134109_2_alg».proof.Proof.Gen.Pre_finite_inputs
import proofs.«175180_j59605556134109_2_alg».proof.Proof.RegionKernel
import proofs.«175180_j59605556134109_2_alg».proof.Proof.KernelValue
import proofs.«175180_j59605556134109_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs to the end, faults nowhere and leaves its arguments as launched. -/
theorem frame_k : Cert.frame_Kernel := fun m ρ _ =>
  (θ_run Cert.Kernel.defs _ _).mono (fun _ h c => (h c).2) (Cert.Kernel.Hand.run_main (F := Bits) m ρ)

/-- So does its reading on the extended reals. -/
theorem frame_ki : Cert.frame_KernelIdeal := fun m ρ _ =>
  (θ_run Cert.KernelIdeal.defs _ _).mono (fun _ h c => (h c).2) (Cert.KernelIdeal.Hand.run_main (F := Ideal) m ρ)

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the embeddings and the labels both programs end at the loss of those two arrays. -/
theorem algebraic : Cert.algebraic_KernelIdeal_ReferenceIdeal := by
  intro m ρ m' ρ' _ hagree
  refine ⟨fun c => Cert.KernelIdeal.Hand.V3 (F := Ideal) m c Cert.KernelIdeal.main_v5, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  funext i
  exact (Cert.ReferenceIdeal.RefValue.result_ref _ _ i).trans (Cert.KernelIdeal.Hand.kernel_result m c i).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
